-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1 : Shape := ⟨2, ![4, 1]⟩
abbrev S4x64x3 : Shape := ⟨3, ![4, 64, 3]⟩
abbrev S4x8192x1 : Shape := ⟨3, ![4, 8192, 1]⟩
abbrev S4x1x1 : Shape := ⟨3, ![4, 1, 1]⟩
abbrev S4x8192 : Shape := ⟨2, ![4, 8192]⟩
abbrev S4x64 : Shape := ⟨2, ![4, 64]⟩
abbrev S4x64x1 : Shape := ⟨3, ![4, 64, 1]⟩
abbrev S4x8192x64 : Shape := ⟨3, ![4, 8192, 64]⟩
abbrev S4x1x64 : Shape := ⟨3, ![4, 1, 64]⟩
abbrev S4 : Shape := ⟨1, ![4]⟩

abbrev nBuf : Space → Nat
  | .hbm => 4
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1, .f32⟩
  | .hbm, ⟨3, _⟩ => ⟨S4, .f32⟩
  | .local _ .vmem, ⟨0, _⟩ => ⟨S4x8192x3, .f32⟩
  | .local _ .vmem, ⟨1, _⟩ => ⟨S4x64x3, .f32⟩
  | .local _ .vmem, ⟨2, _⟩ => ⟨S4x64x3, .f32⟩
  | .local _ .vmem, ⟨3, _⟩ => ⟨S4x1, .f32⟩
  | .local _ .vmem, ⟨4, _⟩ => ⟨S4x8192x1, .f32⟩
  | .local _ .vmem, ⟨5, _⟩ => ⟨S4x1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v37 : BitVec 1 := Scalar.cmpi .eq arg0 c127_i32
  let v38 : BitVec 32 := Scalar.extui v37
  let c0_i32_25 : BitVec 32 := 0#32
  let v39 : BitVec 1 := Scalar.cmpi .ne v38 c0_i32_25
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S4x8192x1_S4x8192x1_0_0_0 : ∀ a, (![0, 0, 0] : Fin 3 → Nat) a + S4x8192x1.size a ≤ S4x8192x1.size a
  h_S4x8192x1 : 0 < S4x8192x1.numel
  shapeCasts_S4x8192x1_S4x8192x1 : S4x8192x1.ShapeCasts S4x8192x1
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  inb_S4x8192x3_S4x8192x3_0_0_0 : ∀ a, (![0, 0, 0] : Fin 3 → Nat) a + S4x8192x3.size a ≤ S4x8192x3.size a
  h_S4x8192x3 : 0 < S4x8192x3.numel
  inb_S4x64x3_S4x64x3_0_0_0 : ∀ a, (![0, 0, 0] : Fin 3 → Nat) a + S4x64x3.size a ≤ S4x64x3.size a
  h_S4x64x3 : 0 < S4x64x3.numel
  reduces_S4x8192x3_S4x8192 : S4x8192x3.Reduces [2] S4x8192
  shapeCasts_S4x8192_S4x8192x1 : S4x8192.ShapeCasts S4x8192x1
  reduces_S4x64x3_S4x64 : S4x64x3.Reduces [2] S4x64
  shapeCasts_S4x64_S4x64x1 : S4x64.ShapeCasts S4x64x1
  transposes_S4x64x1_p0_2_1_S4x1x64 : S4x64x1.Transposes [0, 2, 1] S4x1x64
  broadcasts_S4x8192x1_S4x8192x64 : S4x8192x1.Broadcasts S4x8192x64
  broadcasts_S4x1x64_S4x8192x64 : S4x1x64.Broadcasts S4x8192x64
  reduces_S4x8192x64_S4x8192 : S4x8192x64.Reduces [2] S4x8192
  reduces_S4x8192x64_S4x64 : S4x8192x64.Reduces [1] S4x64
  shapeCasts_S4x64_S4x1x64 : S4x64.ShapeCasts S4x1x64
  reduces_S4x1x64_S4x1 : S4x1x64.Reduces [2] S4x1
  shapeCasts_S4x1_S4x1x1 : S4x1.ShapeCasts S4x1x1
  reduces_S4x8192x1_S4x1 : S4x8192x1.Reduces [1] S4x1
  reduces_S4x1x1_S4x1 : S4x1x1.Reduces [1] S4x1
  inb_S4x1_S4x1_0_0 : ∀ a, (![0, 0] : Fin 2 → Nat) a + S4x1.size a ≤ S4x1.size a
  h_S4x1 : 0 < S4x1.numel
  shapeCasts_S4x1_S4 : S4x1.ShapeCasts S4
  dot_S4x8192x3_S4x64x3_S4x8192x64_2_2_1_1_0_0_wf : DotDims.WF S4x8192x3 S4x64x3 S4x8192x64 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x8192x3.size a ≤ S4x8192x3.size a
  hwx0_0 : ∀ i : grid0.Coords, EltTy.bits .f32 = 32 ∨ (Rect.block (s := S4x8192x3) S4x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x3.size a ≤ S4x8192x3.size a
  hwx0_1 : ∀ i : grid0.Coords, EltTy.bits .f32 = 32 ∨ (Rect.block (s := S4x8192x3) S4x64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1.size a ≤ S4x1.size a
  hwx0_2 : ∀ i : grid0.Coords, EltTy.bits .f32 = 32 ∨ (Rect.block (s := S4x1) S4x1.size (cc0_transform_2 i) (hinb0_2 i)).WholeWords (EltTy.packing .f32)

variable [Facts₀]

def dot_S4x8192x3_S4x64x3_S4x8192x64_2_2_1_1_0_0 : DotDims S4x8192x3 S4x64x3 S4x8192x64 where
  lhsContracting := [2]
  rhsContracting := [2]
  lhsNonContracting := [1]
  rhsNonContracting := [1]
  lhsBatch := [0]
  rhsBatch := [0]
  wf := dot_S4x8192x3_S4x64x3_S4x8192x64_2_2_1_1_0_0_wf

abbrev win0_0 : Pipeline.Window sig grid0 :=
  Pipeline.Window.ofSpec (Memref.whole main_arg0) S4x8192x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The Chamfer distance between two batches of point clouds, over the extended reals.

  A cloud is a `4 × N × 3` array: four batches of `N` points of three coordinates. For a point `p` of one cloud and a
  point `g` of the other, the squared distance is taken in its expanded form `|p|² + |g|² − 2·⟨p, g⟩`, clamped at
  zero from below. Each point of the first cloud is paired with the nearest point of the second (an infimum over the
  second cloud), each point of the second with the nearest of the first; the two families of nearest distances are
  averaged (summed and divided by the number of points) and the two averages added.

  The second cloud can be cut into tiles of 64 consecutive points. The infimum over the whole cloud is the infimum,
  over the tiles, of the infimum inside a tile; the sum over the whole cloud is the sum, over the tiles, of the sum
  inside a tile. Both hold in every complete lattice, resp. commutative monoid: no finiteness is used.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- Four batches of `N` points with three coordinates each. -/
abbrev Cloud (N : ℕ) : Type := (⟨3, ![4, N, 3]⟩ : Shape).Idx → EReal

/-- The number of points of a cloud, `8192`, as the float the programs divide by. -/
abbrev cnt : EReal := Ideal.ofBits .f32 0x46000000#32

/-- `|x|²` of point `n` of batch `b`. -/
def sq {N : ℕ} (X : Cloud N) (b : Fin 4) (n : Fin N) : EReal := ∑ d : Fin 3, X (ix3 b n d) * X (ix3 b n d)

/-- `⟨p, g⟩` of point `n` of `P` and point `k` of `G`, in batch `b`. -/
def dotp {N M : ℕ} (P : Cloud N) (G : Cloud M) (b : Fin 4) (n : Fin N) (k : Fin M) : EReal :=
  ∑ d : Fin 3, P (ix3 b n d) * G (ix3 b k d)

/-- The clamped squared distance `max (|p|² + |g|² − 2⟨p, g⟩) 0`. -/
def dist {N M : ℕ} (P : Cloud N) (G : Cloud M) (b : Fin 4) (n : Fin N) (k : Fin M) : EReal :=
  max ((sq P b n + sq G b k) - Ideal.ofBits .f32 0x40000000#32 * dotp P G b n k) (Ideal.ofBits .f32 0x00000000#32)

/-- The distance from point `n` of `P` to the nearest point of `G`. -/
def nearG {N M : ℕ} (P : Cloud N) (G : Cloud M) (b : Fin 4) (n : Fin N) : EReal := ⨅ k : Fin M, dist P G b n k

/-- The distance from point `k` of `G` to the nearest point of `P`. -/
def nearP {N M : ℕ} (P : Cloud N) (G : Cloud M) (b : Fin 4) (k : Fin M) : EReal := ⨅ n : Fin N, dist P G b n k

/-- The Chamfer distance of batch `b`: the two averages of nearest distances, added. -/
def chamfer (P G : Cloud 8192) (b : Fin 4) : EReal :=
  Ideal.div (∑ n : Fin 8192, nearG P G b n) cnt + Ideal.div (∑ k : Fin 8192, nearP P G b k) cnt

/-- Tile `t` of a cloud of `8192` points: its points `64 t, …, 64 t + 63`. -/
def tile (G : Cloud 8192) (t : Fin 128) : Cloud 64 :=
  fun y => G (ix3 (y 0) ⟨64 * t.val + (y 1).val, by have := t.isLt; have h : (y 1).val < 64 := (y 1).isLt; omega⟩ (y 2))

/-- Point `j` of tile `t`, as a point of the whole cloud. -/
abbrev inTile (t : Fin 128) (j : Fin 64) : Fin 8192 := ⟨64 * t.val + j.val, by have := t.isLt; have := j.isLt; omega⟩

theorem dist_tile (P G : Cloud 8192) (t : Fin 128) (b : Fin 4) (n : Fin 8192) (j : Fin 64) :
    dist P (tile G t) b n j = dist P G b n (inTile t j) := rfl

end Cert.Chamfer

end
-- ==== Proof.Blocks.lean ====
/-
  The blocks the tiled kernel reads at a grid step, as parts of its two argument arrays.

  The first cloud is staged whole at every step: its block is the array. The second cloud is staged 64 points at a
  time: at step `t` its block holds the points `64 t, …, 64 t + 63` of every batch, every coordinate.
-/
import proofs.«139898_j11381663334570_2_alg».proof.Proof.Gen.KernelIdeal.Frame
import proofs.«139898_j11381663334570_2_alg».proof.Proof.Spec
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.Chamfer

variable (m : (ℓ : Loc nD τ sig) → Buf (Elt Ideal) ℓ)

/-- The first cloud, as core `c` holds it when the program starts. -/
abbrev cloudP (c : Dev nD) : Cloud 8192 := m ((c : Thread nD τ).loc main_arg0)
/-- The second cloud. -/
abbrev cloudG (c : Dev nD) : Cloud 8192 := m ((c : Thread nD τ).loc main_arg1)

/-- A grid step as a tile number. -/
abbrev tileOf (t : Fin cfg0.N) : Fin 128 := ⟨t.val, lt_of_lt_of_eq t.isLt (show cfg0.N = 128 from N_0)⟩

/-- The first cloud's block never moves. -/
theorem index_P : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

/-- The second cloud's block moves along the points: block `t` at step `t`. -/
theorem index_G : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

/-- At every step the kernel sees the whole first cloud. -/
theorem iblk_P (c : Dev nD) (t : Fin cfg0.N) : (iblk m c 0 t : Vec Ideal S4x8192x3 .f32) = cloudP m c := by
  obtain ⟨e0, e1, e2⟩ := index_P t
  funext j
  unfold iblk
  rw [View.read_apply]
  show V m c main_arg0 _ = m ((c : Thread nD τ).loc main_arg0) _
  unfold V
  congr 1
  funext a
  apply Fin.ext
  match a with
  | ⟨0, _⟩ => show win0_0.index t 0 * 4 + 1 * (j 0).val = (j 0).val; rw [e0]; omega
  | ⟨1, _⟩ => show win0_0.index t 1 * 8192 + 1 * (j 1).val = (j 1).val; rw [e1]; omega
  | ⟨2, _⟩ => show win0_0.index t 2 * 3 + 1 * (j 2).val = (j 2).val; rw [e2]; omega

/-- At step `t` the kernel sees tile `t` of the second cloud. -/
theorem iblk_G (c : Dev nD) (t : Fin cfg0.N) : (iblk m c 1 t : Vec Ideal S4x64x3 .f32) = tile (cloudG m c) (tileOf t) := by
  obtain ⟨e0, e1, e2⟩ := index_G t
  funext j
  unfold iblk tile
  rw [View.read_apply]
  show V m c main_arg1 _ = m ((c : Thread nD τ).loc main_arg1) _
  unfold V
  congr 1
  funext a
  apply Fin.ext
  match a with
  | ⟨0, _⟩ => show win0_1.index t 0 * 4 + 1 * (j 0).val = (j 0).val; rw [e0]; omega
  | ⟨1, _⟩ => show win0_1.index t 1 * 64 + 1 * (j 1).val = 64 * t.val + (j 1).val; rw [e1]; omega
  | ⟨2, _⟩ => show win0_1.index t 2 * 3 + 1 * (j 2).val = (j 2).val; rw [e2]; omega

end Cert.KernelIdeal.Blocks

end
-- ==== Proof.Pieces.lean ====
/-
  What one grid step of the tiled Chamfer kernel leaves in its two carried buffers and, at the last step, in its result
  block — as pure functions of the step's inputs.

  The kernel visits the 128 tiles of the second cloud in order. It carries a buffer of running row minima (one per
  point of the first cloud) and a buffer holding a running sum of column minima (one number per batch). The first step
  resets them (to +∞ and to 0), every step updates them with its tile, and the last step reduces them to the result.
  Each update is one whole-buffer store, so what a buffer holds after a step is that store's value, with the step's
  loads read as the buffers' contents before it.
-/
import proofs.«139898_j11381663334570_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- After a middle tile the row-minimum buffer holds the old contents met with this tile's row minima. -/
theorem rowmin_B (c : Dev nD) (i : grid0.Coords) (a1 : Memref sig .tc .vmem S4x8192x3 .f32) (h1 : a1.IsWhole) (a2 : Memref sig .tc .vmem S4x64x3 .f32) (h2 : a2.IsWhole) (a3 : Memref sig .tc .vmem S4x1 .f32) (h3 : a3.IsWhole) (a4 : Memref sig .tc .vmem S4x8192x1 .f32) (h4 : a4.IsWhole) (a5 : Memref sig .tc .vmem S4x1x1 .f32) (h5 : a5.IsWhole) (hc0 : ¬cond0_0 i) (hc1 : ¬cond0_1 i) (x0 : Vec F S4x8192x3 .f32) (x1 : Vec F S4x64x3 .f32) (xs0 : Vec F S4x8192x1 .f32) (xs1 : Vec F S4x1x1 .f32) :
    sout0_B_0 c i a1 h1 a2 h2 a3 h3 a4 h4 a5 h5 hc0 hc1 x0 x1 xs0 xs1 = k0_pay6 x0 x1 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  sl_unfold_words
  rw [View.canon_unit_zero hz3]
  simp only [View.readAt_eq_ld, h1.read_unread, h2.read_unread, h4.read_unread, h5.read_unread,
    View.ld_unit_zero (S := S4x8192x3) hz3, View.ld_unit_zero (S := S4x64x3) hz3, View.ld_unit_zero (S := S4x8192x1) hz3,
    View.ld_unit_zero (S := S4x1x1) hz3]

/-- After a middle tile the column-sum buffer holds the old contents plus this tile's sum of column minima. -/
theorem colsum_B (c : Dev nD) (i : grid0.Coords) (a1 : Memref sig .tc .vmem S4x8192x3 .f32) (h1 : a1.IsWhole) (a2 : Memref sig .tc .vmem S4x64x3 .f32) (h2 : a2.IsWhole) (a3 : Memref sig .tc .vmem S4x1 .f32) (h3 : a3.IsWhole) (a4 : Memref sig .tc .vmem S4x8192x1 .f32) (h4 : a4.IsWhole) (a5 : Memref sig .tc .vmem S4x1x1 .f32) (h5 : a5.IsWhole) (hc0 : ¬cond0_0 i) (hc1 : ¬cond0_1 i) (x0 : Vec F S4x8192x3 .f32) (x1 : Vec F S4x64x3 .f32) (xs0 : Vec F S4x8192x1 .f32) (xs1 : Vec F S4x1x1 .f32) :
    sout0_B_1 c i a1 h1 a2 h2 a3 h3 a4 h4 a5 h5 hc0 hc1 x0 x1 xs0 xs1 = k0_pay1 xs1 (k0_pay7 x0 x1) := by
  unfold sout0_B_1
  rw [View.read_writes_eq_canon _ _ _ (scover0_B_1 c i a1 h1 a2 h2 a3 h3 a4 h4 a5 h5 hc0 hc1 x0 x1 xs0 xs1)]
  unfold kernelRun0_B
  dsimp only
  sl_unfold_words
  rw [View.canon_unit_zero hz3]
  simp only [View.readAt_eq_ld, h1.read_unread, h2.read_unread, h4.read_unread, h5.read_unread,
    View.ld_unit_zero (S := S4x8192x3) hz3, View.ld_unit_zero (S := S4x64x3) hz3, View.ld_unit_zero (S := S4x8192x1) hz3,
    View.ld_unit_zero (S := S4x1x1) hz3]

/-- The last tile updates the row-minimum buffer as a middle tile does. -/
theorem rowmin_C (c : Dev nD) (i : grid0.Coords) (a1 : Memref sig .tc .vmem S4x8192x3 .f32) (h1 : a1.IsWhole) (a2 : Memref sig .tc .vmem S4x64x3 .f32) (h2 : a2.IsWhole) (a3 : Memref sig .tc .vmem S4x1 .f32) (h3 : a3.IsWhole) (a4 : Memref sig .tc .vmem S4x8192x1 .f32) (h4 : a4.IsWhole) (a5 : Memref sig .tc .vmem S4x1x1 .f32) (h5 : a5.IsWhole) (hc0 : ¬cond0_0 i) (hc1 : cond0_1 i) (x0 : Vec F S4x8192x3 .f32) (x1 : Vec F S4x64x3 .f32) (xs0 : Vec F S4x8192x1 .f32) (xs1 : Vec F S4x1x1 .f32) :
    sout0_C_0 c i a1 h1 a2 h2 a3 h3 a4 h4 a5 h5 hc0 hc1 x0 x1 xs0 xs1 = k0_pay6 x0 x1 xs0 := by
  unfold sout0_C_0
  rw [View.read_writes_eq_canon _ _ _ (scover0_C_0 c i a1 h1 a2 h2 a3 h3 a4 h4 a5 h5 hc0 hc1 x0 x1 xs0 xs1)]
  unfold kernelRun0_C
  dsimp only
  sl_unfold_words
  rw [View.canon_unit_zero hz3]
  simp only [View.readAt_eq_ld, h1.read_unread, h2.read_unread, h4.read_unread, h5.read_unread,
    View.ld_unit_zero (S := S4x8192x3) hz3, View.ld_unit_zero (S := S4x64x3) hz3, View.ld_unit_zero (S := S4x8192x1) hz3,
    View.ld_unit_zero (S := S4x1x1) hz3]

/-- The last tile updates the column-sum buffer as a middle tile does. -/
theorem colsum_C (c : Dev nD) (i : grid0.Coords) (a1 : Memref sig .tc .vmem S4x8192x3 .f32) (h1 : a1.IsWhole) (a2 : Memref sig .tc .vmem S4x64x3 .f32) (h2 : a2.IsWhole) (a3 : Memref sig .tc .vmem S4x1 .f32) (h3 : a3.IsWhole) (a4 : Memref sig .tc .vmem S4x8192x1 .f32) (h4 : a4.IsWhole) (a5 : Memref sig .tc .vmem S4x1x1 .f32) (h5 : a5.IsWhole) (hc0 : ¬cond0_0 i) (hc1 : cond0_1 i) (x0 : Vec F S4x8192x3 .f32) (x1 : Vec F S4x64x3 .f32) (xs0 : Vec F S4x8192x1 .f32) (xs1 : Vec F S4x1x1 .f32) :
    sout0_C_1 c i a1 h1 a2 h2 a3 h3 a4 h4 a5 h5 hc0 hc1 x0 x1 xs0 xs1 = k0_pay1 xs1 (k0_pay7 x0 x1) := by
  unfold sout0_C_1
  rw [View.read_writes_eq_canon _ _ _ (scover0_C_1 c i a1 h1 a2 h2 a3 h3 a4 h4 a5 h5 hc0 hc1 x0 x1 xs0 xs1)]
  unfold kernelRun0_C
  dsimp only
  sl_unfold_words
  rw [View.canon_unit_zero hz3]
  simp only [View.readAt_eq_ld, h1.read_unread, h2.read_unread, h4.read_unread, h5.read_unread,
    View.ld_unit_zero (S := S4x8192x3) hz3, View.ld_unit_zero (S := S4x64x3) hz3, View.ld_unit_zero (S := S4x8192x1) hz3,
    View.ld_unit_zero (S := S4x1x1) hz3]

/-- The last tile then writes the result block: the two averages of what the two buffers hold by then. -/
theorem result_C (c : Dev nD) (i : grid0.Coords) (a1 : Memref sig .tc .vmem S4x8192x3 .f32) (h1 : a1.IsWhole) (a2 : Memref sig .tc .vmem S4x64x3 .f32) (h2 : a2.IsWhole) (a3 : Memref sig .tc .vmem S4x1 .f32) (h3 : a3.IsWhole) (a4 : Memref sig .tc .vmem S4x8192x1 .f32) (h4 : a4.IsWhole) (a5 : Memref sig .tc .vmem S4x1x1 .f32) (h5 : a5.IsWhole) (hc0 : ¬cond0_0 i) (hc1 : cond0_1 i) (x0 : Vec F S4x8192x3 .f32) (x1 : Vec F S4x64x3 .f32) (xs0 : Vec F S4x8192x1 .f32) (xs1 : Vec F S4x1x1 .f32) :
    out0_C_2 c i a1 h1 a2 h2 a3 h3 a4 h4 a5 h5 hc0 hc1 x0 x1 xs0 xs1 = k0_pay2 (k0_pay6 x0 x1 xs0) (k0_pay1 xs1 (k0_pay7 x0 x1)) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_unit_zero hz2, View.readCov_unit_zero (S := S4x8192x1) _ hz3, View.readCov_unit_zero (S := S4x1x1) _ hz3]
  simp only [View.readAt_eq_ld, h1.read_unread, h2.read_unread, h4.read_unread, h5.read_unread,
    View.ld_unit_zero (S := S4x8192x3) hz3, View.ld_unit_zero (S := S4x64x3) hz3, View.ld_unit_zero (S := S4x8192x1) hz3,
    View.ld_unit_zero (S := S4x1x1) hz3]

/-- The first tile resets the row-minimum buffer to `+∞` and then updates it. -/
theorem rowmin_A (c : Dev nD) (i : grid0.Coords) (a1 : Memref sig .tc .vmem S4x8192x3 .f32) (h1 : a1.IsWhole) (a2 : Memref sig .tc .vmem S4x64x3 .f32) (h2 : a2.IsWhole) (a3 : Memref sig .tc .vmem S4x1 .f32) (h3 : a3.IsWhole) (a4 : Memref sig .tc .vmem S4x8192x1 .f32) (h4 : a4.IsWhole) (a5 : Memref sig .tc .vmem S4x1x1 .f32) (h5 : a5.IsWhole) (hc0 : cond0_0 i) (hc1 : ¬cond0_1 i) (x0 : Vec F S4x8192x3 .f32) (x1 : Vec F S4x64x3 .f32) :
    sout0_A_0 c i a1 h1 a2 h2 a3 h3 a4 h4 a5 h5 hc0 hc1 x0 x1 = k0_pay6 x0 x1 k0_pay3 := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S4x8192x1) hz3, View.readCov_unit_zero (S := S4x8192x1) _ hz3]
  simp only [View.readAt_eq_ld, h1.read_unread, h2.read_unread, h4.read_unread, h5.read_unread,
    View.ld_unit_zero (S := S4x8192x3) hz3, View.ld_unit_zero (S := S4x64x3) hz3, View.ld_unit_zero (S := S4x8192x1) hz3,
    View.ld_unit_zero (S := S4x1x1) hz3]

/-- The first tile resets the column-sum buffer to zero and then updates it. -/
theorem colsum_A (c : Dev nD) (i : grid0.Coords) (a1 : Memref sig .tc .vmem S4x8192x3 .f32) (h1 : a1.IsWhole) (a2 : Memref sig .tc .vmem S4x64x3 .f32) (h2 : a2.IsWhole) (a3 : Memref sig .tc .vmem S4x1 .f32) (h3 : a3.IsWhole) (a4 : Memref sig .tc .vmem S4x8192x1 .f32) (h4 : a4.IsWhole) (a5 : Memref sig .tc .vmem S4x1x1 .f32) (h5 : a5.IsWhole) (hc0 : cond0_0 i) (hc1 : ¬cond0_1 i) (x0 : Vec F S4x8192x3 .f32) (x1 : Vec F S4x64x3 .f32) :
    sout0_A_1 c i a1 h1 a2 h2 a3 h3 a4 h4 a5 h5 hc0 hc1 x0 x1 = k0_pay1 k0_pay4 (k0_pay7 x0 x1) := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S4x1x1) hz3, View.readCov_unit_zero (S := S4x1x1) _ hz3]
  simp only [View.readAt_eq_ld, h1.read_unread, h2.read_unread, h4.read_unread, h5.read_unread,
    View.ld_unit_zero (S := S4x8192x3) hz3, View.ld_unit_zero (S := S4x64x3) hz3, View.ld_unit_zero (S := S4x8192x1) hz3,
    View.ld_unit_zero (S := S4x1x1) hz3]

end Cert.KernelIdeal.Pieces

end
-- ==== Proof.Tiles.lean ====
/-
  Infima and sums over `Fin 8192`, cut into 128 tiles of 64 consecutive indices, in the extended reals.

  The pair (tile, place) ↦ 64·tile + place is a bijection of `Fin 128 × Fin 64` with `Fin 8192` (inverse: quotient and
  remainder by 64). Along it an infimum over `Fin 8192` is the infimum over the tiles of the infima inside a tile, and a
  sum over `Fin 8192` is the sum over the tiles of the sums inside a tile.

  A running minimum over the tiles `0, …, n` is the infimum over the tiles of index at most `n`: it starts from `⊤`, a step
  takes the minimum with the next tile's value, and at `n = 127` the bound is vacuous. The same holds for a running sum,
  which starts from `0` and adds the next tile's value.

  Put together, the Chamfer distance can be computed tile by tile.
-/
import proofs.«139898_j11381663334570_2_alg».proof.Proof.Spec

noncomputable section

namespace Cert.Chamfer

open Idealize.ShloMosaic Idealize.ShloMosaic.ValueIdx

/-- The pattern of positive infinity denotes `⊤`. -/
theorem ofBits_inf : Ideal.ofBits .f32 0x7F800000#32 = (⊤ : EReal) := by
  simp [Ideal.ofBits, Ideal.ieee]

/-- Folding `min` from `⊤` over all of `Fin n` is the infimum. -/
theorem fold_min_eq_iInf {n : ℕ} (f : Fin n → EReal) :
    (Finset.univ : Finset (Fin n)).fold min ⊤ f = ⨅ i, f i := by
  rw [← Finset.inf_univ_eq_iInf]
  rfl

/-- (tile, place) ↦ 64·tile + place, with inverse (quotient, remainder) by 64. -/
def tileEquiv : Fin 128 × Fin 64 ≃ Fin 8192 where
  toFun x := inTile x.1 x.2
  invFun k := (⟨k.val / 64, by have := k.isLt; omega⟩, ⟨k.val % 64, by omega⟩)
  left_inv := fun ⟨t, j⟩ => by
    have ht := t.isLt
    have hj := j.isLt
    refine Prod.ext (Fin.ext ?_) (Fin.ext ?_)
    · show (64 * t.val + j.val) / 64 = t.val
      omega
    · show (64 * t.val + j.val) % 64 = j.val
      omega
  right_inv := fun k => by
    refine Fin.ext ?_
    show 64 * (k.val / 64) + k.val % 64 = k.val
    omega

theorem tileEquiv_apply (x : Fin 128 × Fin 64) : tileEquiv x = inTile x.1 x.2 := rfl

theorem iInf_tiles (g : Fin 8192 → EReal) :
    ⨅ t : Fin 128, ⨅ j : Fin 64, g (inTile t j) = ⨅ k : Fin 8192, g k := by
  rw [← Equiv.iInf_comp (g := g) tileEquiv, iInf_prod]
  rfl

theorem sum_tiles (g : Fin 8192 → EReal) :
    ∑ t : Fin 128, ∑ j : Fin 64, g (inTile t j) = ∑ k : Fin 8192, g k := by
  rw [← Equiv.sum_comp tileEquiv g, Fintype.sum_prod_type]
  rfl

theorem runMin_zero (f : Fin 128 → EReal) :
    min ⊤ (f ⟨0, by decide⟩) = ⨅ t : Fin 128, ⨅ (_ : t.val ≤ 0), f t := by
  rw [min_eq_right le_top]
  apply le_antisymm
  · refine le_iInf fun t => le_iInf fun ht => ?_
    have e : t = ⟨0, by decide⟩ := Fin.ext (by show t.val = 0; omega)
    rw [e]
  · exact iInf₂_le (⟨0, by decide⟩ : Fin 128) (Nat.le_refl 0)

theorem runMin_succ (f : Fin 128 → EReal) (n : ℕ) (h : n + 1 < 128) :
    min (⨅ t : Fin 128, ⨅ (_ : t.val ≤ n), f t) (f ⟨n + 1, h⟩)
      = ⨅ t : Fin 128, ⨅ (_ : t.val ≤ n + 1), f t := by
  apply le_antisymm
  · refine le_iInf fun t => le_iInf fun ht => ?_
    rcases Nat.lt_or_ge t.val (n + 1) with h1 | h1
    · exact (min_le_left _ _).trans (iInf₂_le t (by omega))
    · have e : t = ⟨n + 1, h⟩ := Fin.ext (by show t.val = n + 1; omega)
      rw [e]
      exact min_le_right _ _
  · refine le_min (le_iInf fun t => le_iInf fun ht => iInf₂_le t (by omega)) ?_
    exact iInf₂_le (⟨n + 1, h⟩ : Fin 128) (le_refl (n + 1))

theorem runMin_last (f : Fin 128 → EReal) :
    ⨅ t : Fin 128, ⨅ (_ : t.val ≤ 127), f t = ⨅ t, f t := by
  refine iInf_congr fun t => ?_
  exact iInf_pos (by have := t.isLt; omega)

theorem runSum_zero (f : Fin 128 → EReal) :
    0 + f ⟨0, by decide⟩ = ∑ t ∈ Finset.univ.filter (fun t : Fin 128 => t.val ≤ 0), f t := by
  have e : Finset.univ.filter (fun t : Fin 128 => t.val ≤ 0) = {(⟨0, by decide⟩ : Fin 128)} := by
    ext t
    simp only [Finset.mem_filter, Finset.mem_univ, true_and, Finset.mem_singleton, Fin.ext_iff]
    omega
  rw [e, Finset.sum_singleton, zero_add]

theorem runSum_succ (f : Fin 128 → EReal) (n : ℕ) (h : n + 1 < 128) :
    (∑ t ∈ Finset.univ.filter (fun t : Fin 128 => t.val ≤ n), f t) + f ⟨n + 1, h⟩
      = ∑ t ∈ Finset.univ.filter (fun t : Fin 128 => t.val ≤ n + 1), f t := by
  have e : Finset.univ.filter (fun t : Fin 128 => t.val ≤ n + 1)
      = insert (⟨n + 1, h⟩ : Fin 128) (Finset.univ.filter (fun t : Fin 128 => t.val ≤ n)) := by
    ext t
    simp only [Finset.mem_filter, Finset.mem_univ, true_and, Finset.mem_insert, Fin.ext_iff]
    omega
  have hn : (⟨n + 1, h⟩ : Fin 128) ∉ Finset.univ.filter (fun t : Fin 128 => t.val ≤ n) := by
    simp only [Finset.mem_filter, Finset.mem_univ, true_and]
    omega
  rw [e, Finset.sum_insert hn, add_comm]

theorem runSum_last (f : Fin 128 → EReal) :
    ∑ t ∈ Finset.univ.filter (fun t : Fin 128 => t.val ≤ 127), f t = ∑ t, f t := by
  rw [Finset.filter_true_of_mem (fun t _ => by have := t.isLt; omega)]

/-- The Chamfer distance, with the second cloud read tile by tile. -/
theorem chamfer_tiles (P G : Cloud 8192) (b : Fin 4) :
    Ideal.div (∑ n : Fin 8192, ⨅ t : Fin 128, ⨅ j : Fin 64, dist P (tile G t) b n j) cnt
      + Ideal.div (∑ t : Fin 128, ∑ j : Fin 64, nearP P (tile G t) b j) cnt = chamfer P G b := by
  have h1 : ∀ n : Fin 8192,
      (⨅ t : Fin 128, ⨅ j : Fin 64, dist P (tile G t) b n j) = nearG P G b n := fun n =>
    iInf_tiles (fun k => dist P G b n k)
  have h2 : (∑ t : Fin 128, ∑ j : Fin 64, nearP P (tile G t) b j) = ∑ k : Fin 8192, nearP P G b k :=
    sum_tiles (fun k => nearP P G b k)
  rw [Finset.sum_congr rfl (fun n _ => h1 n), h2]
  rfl

end Cert.Chamfer

end
-- ==== Proof.Layout.lean ====
/-
  Keepdims forms of rank 3, read at an index given by its coordinates.

  An array of shape `[a, b]` becomes an array of rank 3 by inserting a unit axis, last (`[a, b, 1]`) or in the
  middle (`[a, 1, b]`); both keep the row-major order of the elements, so the element at `(i, j, 0)`, resp.
  `(i, 0, j)`, is the element at `(i, j)`. An array with a unit axis is broadcast along it by repeating its one
  slice: `[a, b, 1]` to `[a, b, c]` reads `(i, j, 0)` at `(i, j, k)`, and `[a, 1, c]` to `[a, b, c]` reads
  `(i, 0, k)` at `(i, j, k)`. The extents are arbitrary naturals: an axis of the source that happens to have extent
  one carries only the coordinate `0`, which is what a broadcast reads there.
-/
import Idealize.ShloMosaic.Lib.Pipeline.Value
import Idealize.ShloMosaic.Lib.ValueIdx
import Idealize.ShloMosaic.Lib.ValueLayout

namespace Cert.Chamfer.Layout

open Idealize.ShloMosaic Idealize.ShloMosaic.ValueIdx

variable {α : Type}

/-- An `[a, b]` array cast to `[a, b, 1]` reads, at `(i, j, u)`, the operand at `(i, j)`: both have row-major
position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`: both have row-major
position `i * b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Cert.Chamfer.Layout
-- ==== Proof.Payload.lean ====
/-
  The arithmetic of one tile step of the Chamfer distance, read at an index, over the extended reals.

  A step takes the whole first cloud `P` (four batches of 8192 points) and one tile `g` of 64 points of the second.
  It forms the 8192 × 64 table of clamped squared distances `dist P g b n j = max (|p|² + |g|² − 2⟨p, g⟩) 0`: the two
  squared norms are sums over the three coordinates, laid along the rows and along the columns of the table, and the
  inner products are one batched product contracting the coordinate axis. From the table it takes
    • along each row the infimum over the tile, and lowers the running row minimum by it;
    • along each column the infimum over the points of `P`, and adds up the 64 column infima.
  Before the first tile the running row minimum is `+∞` and the running sum of column infima is `0`; each step adds its
  sum of column infima to the running sum; after the last tile the result is the sum over the rows of the running
  minimum, divided by the number of points, plus the running sum divided by the number of points.

  Each statement below says what one of these values is at a given index, in the vocabulary of the specification
  (`sq`, `dotp`, `dist`, `cnt`). Every operation is exact here, so each is an identity of extended reals.
-/
import proofs.«139898_j11381663334570_2_alg».proof.Proof.Spec
import proofs.«139898_j11381663334570_2_alg».proof.Proof.Layout
import proofs.«139898_j11381663334570_2_alg».proof.Proof.Gen.KernelIdeal.Skeleton
import Idealize.ShloMosaic.PureOps.Ideal.Laws

noncomputable section

namespace Cert.Chamfer.Payload

open Cert.KernelIdeal Cert.KernelIdeal.Gen Idealize.ShloMosaic Idealize.ShloMosaic.ValueIdx Cert.Chamfer

/-! ## Constants -/

/-- The pattern `0x7F800000` denotes `+∞`. -/
theorem ofBits_inf_f32 : Ideal.ofBits .f32 0x7F800000#32 = ⊤ := by simp [Ideal.ofBits, Ideal.ieee]

/-- The initial running row minimum is `+∞` everywhere. -/
theorem pay3_apply (y : S4x8192x1.Idx) : k0_pay3 (F := Ideal) y = ⊤ := by
  unfold k0_pay3
  rw [shapeCast_self]
  exact ofBits_inf_f32

/-- The initial running sum of column infima is `0` everywhere. -/
theorem pay4_apply (y : S4x1x1.Idx) : k0_pay4 (F := Ideal) y = 0 := by
  unfold k0_pay4
  rw [shapeCast_self]
  exact Ideal.ofBits_zero_f32

/-- The running sum after a step: the sum before it plus the step's sum of column infima. -/
theorem pay1_apply (v30 : Vec Ideal S4x1x1 .f32) (v31 : FVec Ideal S4x1 .f32) (b : Fin 4) (u v : Fin 1) :
    k0_pay1 (F := Ideal) v30 v31 (ix3 b u v) = v30 (ix3 b u v) + v31 (ix2 b u) := by
  unfold k0_pay1
  rw [shapeCast_self, addf_apply, Layout.shapeCast_ab_ab1_apply]

/-- The result: the sum of the row minima over the points, divided by their number, plus the running sum of column
    infima divided by the same number. -/
theorem pay2_apply (v40 : Vec Ideal S4x8192x1 .f32) (v42 : Vec Ideal S4x1x1 .f32) (b : Fin 4) (u : Fin 1) :
    k0_pay2 (F := Ideal) v40 v42 (ix2 b u)
      = Ideal.div (∑ n : Fin 8192, v40 (ix3 b n u)) cnt + Ideal.div (v42 (ix3 b 0 u)) cnt := by
  have e1 : multiReduction (F := Ideal) .add [1] S4x1 v40 0x00000000#32 reduces_S4x8192x1_S4x1 (.inl rfl) rfl (ix2 b u)
      = ∑ n : Fin 8192, v40 (ix3 b n u) := by
    refine (Ideal.multiReduction_add_single (φ := .f32) v40 _ reduces_S4x8192x1_S4x1 (.inl rfl) rfl (ix2 b u)).trans ?_
    exact Finset.sum_congr rfl fun n _ => congrArg v40 (funext fun a => Fin.ext (by
      match a with
      | ⟨0, _⟩ => rfl
      | ⟨1, _⟩ => rfl
      | ⟨2, _⟩ => rfl))
  have e2 : multiReduction (F := Ideal) .add [1] S4x1 v42 0x00000000#32 reduces_S4x1x1_S4x1 (.inl rfl) rfl (ix2 b u)
      = v42 (ix3 b 0 u) := by
    refine (Ideal.multiReduction_add_single (φ := .f32) v42 _ reduces_S4x1x1_S4x1 (.inl rfl) rfl (ix2 b u)).trans ?_
    show (∑ k : Fin 1, v42 (reduces_S4x1x1_S4x1.lift (ix2 b u) k)) = v42 (ix3 b 0 u)
    rw [Fin.sum_univ_one]
    exact congrArg v42 (funext fun a => Fin.ext (by
      match a with
      | ⟨0, _⟩ => rfl
      | ⟨1, _⟩ => rfl
      | ⟨2, _⟩ => rfl))
  unfold k0_pay2
  rw [addf_apply, divf_apply, divf_apply]
  exact congrArg₂ (fun x y => Ideal.div x cnt + Ideal.div y cnt) e1 e2

/-! ## The non-pointwise operations, read at coordinates -/

/-- The sum over the three coordinates of a point's squares is `sq`. -/
theorem sumsqP_apply (P : FVec Ideal S4x8192x3 .f32) (b : Fin 4) (n : Fin 8192) :
    multiReduction .add [2] S4x8192 (mulf P P) 0x00000000#32 reduces_S4x8192x3_S4x8192 (.inl rfl) rfl (ix2 b n)
      = sq P b n := by
  refine (Ideal.multiReduction_add_single (φ := .f32) (mulf P P) _ reduces_S4x8192x3_S4x8192 (.inl rfl) rfl
    (ix2 b n)).trans ?_
  unfold sq
  refine Finset.sum_congr rfl fun d _ => ?_
  have e : reduces_S4x8192x3_S4x8192.lift (ix2 b n) d = ix3 b n d := funext fun a => Fin.ext (by
    match a with
    | ⟨0, _⟩ => rfl
    | ⟨1, _⟩ => rfl
    | ⟨2, _⟩ => rfl)
  rw [e]
  rfl

/-- The same for a tile of 64 points. -/
theorem sumsqG_apply (g : FVec Ideal S4x64x3 .f32) (b : Fin 4) (j : Fin 64) :
    multiReduction .add [2] S4x64 (mulf g g) 0x00000000#32 reduces_S4x64x3_S4x64 (.inl rfl) rfl (ix2 b j)
      = sq g b j := by
  refine (Ideal.multiReduction_add_single (φ := .f32) (mulf g g) _ reduces_S4x64x3_S4x64 (.inl rfl) rfl
    (ix2 b j)).trans ?_
  unfold sq
  refine Finset.sum_congr rfl fun d _ => ?_
  have e : reduces_S4x64x3_S4x64.lift (ix2 b j) d = ix3 b j d := funext fun a => Fin.ext (by
    match a with
    | ⟨0, _⟩ => rfl
    | ⟨1, _⟩ => rfl
    | ⟨2, _⟩ => rfl)
  rw [e]
  rfl

/-- The left operand's index of the batched product: batch, point, contracted coordinate. -/
theorem lhs_0 (i : S4x8192x64.Idx) (q : dot_S4x8192x3_S4x64x3_S4x8192x64_2_2_1_1_0_0.contr.Idx) : (dot_S4x8192x3_S4x64x3_S4x8192x64_2_2_1_1_0_0.lhsIdx i q 0).val = (i 0).val := by
  unfold DotDims.lhsIdx
  rw [dif_pos (show (0 : Fin S4x8192x3.rank) ∈ dot_S4x8192x3_S4x64x3_S4x8192x64_2_2_1_1_0_0.lhsBatch by decide)]
  rfl
theorem lhs_1 (i : S4x8192x64.Idx) (q : dot_S4x8192x3_S4x64x3_S4x8192x64_2_2_1_1_0_0.contr.Idx) : (dot_S4x8192x3_S4x64x3_S4x8192x64_2_2_1_1_0_0.lhsIdx i q 1).val = (i 1).val := by
  unfold DotDims.lhsIdx
  rw [dif_neg (show ¬(1 : Fin S4x8192x3.rank) ∈ dot_S4x8192x3_S4x64x3_S4x8192x64_2_2_1_1_0_0.lhsBatch by decide),
    dif_pos (show (1 : Fin S4x8192x3.rank) ∈ dot_S4x8192x3_S4x64x3_S4x8192x64_2_2_1_1_0_0.lhsNonContracting by decide)]
  rfl
theorem lhs_2 (i : S4x8192x64.Idx) (q : dot_S4x8192x3_S4x64x3_S4x8192x64_2_2_1_1_0_0.contr.Idx) : (dot_S4x8192x3_S4x64x3_S4x8192x64_2_2_1_1_0_0.lhsIdx i q 2).val = (q ⟨0, by decide⟩).val :=
  dot_S4x8192x3_S4x64x3_S4x8192x64_2_2_1_1_0_0.lhsIdx_val_of_single rfl i q
/-- The right operand's index: batch, tile point, contracted coordinate. -/
theorem rhs_0 (i : S4x8192x64.Idx) (q : dot_S4x8192x3_S4x64x3_S4x8192x64_2_2_1_1_0_0.contr.Idx) : (dot_S4x8192x3_S4x64x3_S4x8192x64_2_2_1_1_0_0.rhsIdx i q 0).val = (i 0).val := by
  unfold DotDims.rhsIdx
  rw [dif_pos (show (0 : Fin S4x64x3.rank) ∈ dot_S4x8192x3_S4x64x3_S4x8192x64_2_2_1_1_0_0.rhsBatch by decide)]
  rfl
theorem rhs_1 (i : S4x8192x64.Idx) (q : dot_S4x8192x3_S4x64x3_S4x8192x64_2_2_1_1_0_0.contr.Idx) : (dot_S4x8192x3_S4x64x3_S4x8192x64_2_2_1_1_0_0.rhsIdx i q 1).val = (i 2).val := by
  unfold DotDims.rhsIdx
  rw [dif_neg (show ¬(1 : Fin S4x64x3.rank) ∈ dot_S4x8192x3_S4x64x3_S4x8192x64_2_2_1_1_0_0.rhsBatch by decide),
    dif_pos (show (1 : Fin S4x64x3.rank) ∈ dot_S4x8192x3_S4x64x3_S4x8192x64_2_2_1_1_0_0.rhsNonContracting by decide)]
  rfl
theorem rhs_2 (i : S4x8192x64.Idx) (q : dot_S4x8192x3_S4x64x3_S4x8192x64_2_2_1_1_0_0.contr.Idx) : (dot_S4x8192x3_S4x64x3_S4x8192x64_2_2_1_1_0_0.rhsIdx i q 2).val = (q ⟨0, by decide⟩).val :=
  dot_S4x8192x3_S4x64x3_S4x8192x64_2_2_1_1_0_0.rhsIdx_val_of_single rfl i q

/-- The batched product of the points with the tile's points, contracting the coordinate axis into a zero
    accumulator, is `dotp`. -/
theorem matmul_apply_dotp (P : FVec Ideal S4x8192x3 .f32) (g : FVec Ideal S4x64x3 .f32) (b : Fin 4) (n : Fin 8192)
    (j : Fin 64) :
    matmul dot_S4x8192x3_S4x64x3_S4x8192x64_2_2_1_1_0_0 none P g (constant S4x8192x64 .f32 0x00000000#32) (ix3 b n j) = dotp P g b n j := by
  simp only [matmul]
  rw [Ideal.matmul_constant_zero_apply, ← Equiv.sum_comp (ValueIdx.contrEquiv1 dot_S4x8192x3_S4x64x3_S4x8192x64_2_2_1_1_0_0 3 rfl rfl).symm]
  unfold dotp
  refine Finset.sum_congr rfl fun k _ => ?_
  have hk := ValueIdx.contrEquiv1_symm_val dot_S4x8192x3_S4x64x3_S4x8192x64_2_2_1_1_0_0 3 rfl rfl k
  have el : dot_S4x8192x3_S4x64x3_S4x8192x64_2_2_1_1_0_0.lhsIdx (ix3 b n j) ((ValueIdx.contrEquiv1 dot_S4x8192x3_S4x64x3_S4x8192x64_2_2_1_1_0_0 3 rfl rfl).symm k) = ix3 b n k :=
    funext fun a => Fin.ext (by
      match a with
      | ⟨0, _⟩ => exact lhs_0 _ _
      | ⟨1, _⟩ => exact lhs_1 _ _
      | ⟨2, _⟩ => exact (lhs_2 _ _).trans hk)
  have er : dot_S4x8192x3_S4x64x3_S4x8192x64_2_2_1_1_0_0.rhsIdx (ix3 b n j) ((ValueIdx.contrEquiv1 dot_S4x8192x3_S4x64x3_S4x8192x64_2_2_1_1_0_0 3 rfl rfl).symm k) = ix3 b j k :=
    funext fun a => Fin.ext (by
      match a with
      | ⟨0, _⟩ => exact rhs_0 _ _
      | ⟨1, _⟩ => exact rhs_1 _ _
      | ⟨2, _⟩ => exact (rhs_2 _ _).trans hk)
  rw [el, er]

/-- A fold of `min` from `+∞` over a whole finite index set is the infimum of the family. -/
theorem fold_minimumf_top {ι : Type} [Fintype ι] (f : ι → EReal) :
    (Finset.univ : Finset ι).fold (FloatOps.minimumf (F := Ideal) (φ := .f32)) ⊤ f = ⨅ i, f i := by
  rw [← Finset.inf_univ_eq_iInf]
  rfl

/-- The minimum along the tile's axis, from `+∞`: the infimum over the tile's points. -/
theorem rowMin_apply (X : FVec Ideal S4x8192x64 .f32) (b : Fin 4) (n : Fin 8192) :
    multiReduction .minimumf [2] S4x8192 X 0x7F800000#32 reduces_S4x8192x64_S4x8192 (.inl rfl) rfl (ix2 b n)
      = ⨅ j : Fin 64, X (ix3 b n j) := by
  refine (multiReduction_minimumf_eq_fold (F := Ideal) (φ := .f32) X _ reduces_S4x8192x64_S4x8192 (.inl rfl) rfl
    (ix2 b n)).trans ?_
  rw [Shape.Reduces.fold_filter_drop_single]
  show (Finset.univ : Finset (Fin 64)).fold (FloatOps.minimumf (F := Ideal) (φ := .f32)) (Ideal.ofBits .f32 0x7F800000#32)
    (X ∘ reduces_S4x8192x64_S4x8192.lift (ix2 b n)) = _
  rw [ofBits_inf_f32]
  refine (fold_minimumf_top _).trans ?_
  refine iInf_congr fun j => congrArg X (funext fun a => Fin.ext (by
    match a with
    | ⟨0, _⟩ => rfl
    | ⟨1, _⟩ => rfl
    | ⟨2, _⟩ => rfl))

/-- The minimum along the points' axis, from `+∞`: the infimum over the points. -/
theorem colMin_apply (X : FVec Ideal S4x8192x64 .f32) (b : Fin 4) (j : Fin 64) :
    multiReduction .minimumf [1] S4x64 X 0x7F800000#32 reduces_S4x8192x64_S4x64 (.inl rfl) rfl (ix2 b j)
      = ⨅ n : Fin 8192, X (ix3 b n j) := by
  refine (multiReduction_minimumf_eq_fold (F := Ideal) (φ := .f32) X _ reduces_S4x8192x64_S4x64 (.inl rfl) rfl
    (ix2 b j)).trans ?_
  rw [Shape.Reduces.fold_filter_drop_single]
  show (Finset.univ : Finset (Fin 8192)).fold (FloatOps.minimumf (F := Ideal) (φ := .f32)) (Ideal.ofBits .f32 0x7F800000#32)
    (X ∘ reduces_S4x8192x64_S4x64.lift (ix2 b j)) = _
  rw [ofBits_inf_f32]
  refine (fold_minimumf_top _).trans ?_
  refine iInf_congr fun n => congrArg X (funext fun a => Fin.ext (by
    match a with
    | ⟨0, _⟩ => rfl
    | ⟨1, _⟩ => rfl
    | ⟨2, _⟩ => rfl))

/-! ## The three payloads of the tile step -/

/-- The table of the step at row `n` and column `j` is the clamped squared distance between point `n` of `P` and point
    `j` of the tile. -/
theorem pay5_apply (P : Vec Ideal S4x8192x3 .f32) (g : Vec Ideal S4x64x3 .f32) (b : Fin 4) (n : Fin 8192) (j : Fin 64) :
    k0_pay5 (F := Ideal) P g (ix3 b n j) = dist P g b n j := by
  unfold k0_pay5
  rw [maximumf_apply, subf_apply, addf_apply, mulf_apply,
    Layout.broadcastTo_ab1_abc_apply, Layout.broadcastTo_a1c_abc_apply, transpose_ix3_021_apply,
    Layout.shapeCast_ab_ab1_apply, Layout.shapeCast_ab_ab1_apply]
  unfold dist
  exact congrArg₂ max (congrArg₂ (· - ·) (congrArg₂ (· + ·) (sumsqP_apply P b n) (sumsqG_apply g b j))
    (congrArg (_ * ·) (matmul_apply_dotp P g b n j))) rfl

/-- The running row minimum after a step: the minimum of its value before and the infimum of the row over the tile. -/
theorem pay6_apply (P : Vec Ideal S4x8192x3 .f32) (g : Vec Ideal S4x64x3 .f32) (acc : Vec Ideal S4x8192x1 .f32)
    (b : Fin 4) (n : Fin 8192) (u : Fin 1) :
    k0_pay6 (F := Ideal) P g acc (ix3 b n u) = min (acc (ix3 b n u)) (⨅ j : Fin 64, dist P g b n j) := by
  unfold k0_pay6
  rw [shapeCast_self, minimumf_apply, Layout.shapeCast_ab_ab1_apply]
  refine congrArg (min _) ((rowMin_apply _ b n).trans ?_)
  exact iInf_congr fun j => pay5_apply P g b n j

/-- The step's contribution to the running sum: the sum over the tile's points of the infimum of their column. -/
theorem pay7_apply (P : Vec Ideal S4x8192x3 .f32) (g : Vec Ideal S4x64x3 .f32) (b : Fin 4) (u : Fin 1) :
    k0_pay7 (F := Ideal) P g (ix2 b u) = ∑ j : Fin 64, ⨅ n : Fin 8192, dist P g b n j := by
  unfold k0_pay7
  refine (Ideal.multiReduction_add_single (φ := .f32) _ _ reduces_S4x1x64_S4x1 (.inl rfl) rfl (ix2 b u)).trans ?_
  show (∑ j : Fin 64, shapeCast S4x1x64 _ shapeCasts_S4x64_S4x1x64 (reduces_S4x1x64_S4x1.lift (ix2 b u) j)) = _
  refine Finset.sum_congr rfl fun j _ => ?_
  have e : reduces_S4x1x64_S4x1.lift (ix2 b u) j = ix3 b u j := funext fun a => Fin.ext (by
    match a with
    | ⟨0, _⟩ => rfl
    | ⟨1, _⟩ => rfl
    | ⟨2, _⟩ => rfl)
  rw [e, Layout.shapeCast_ab_a1b_apply]
  refine (colMin_apply _ b j).trans ?_
  exact iInf_congr fun n => pay5_apply P g b n j

end Cert.Chamfer.Payload

end
-- ==== Proof.Steps.lean ====
/-
  The tiled kernel's carried values in closed form.

  After the steps `0, …, n` the row-minimum buffer holds, at point `p` of batch `b`, the least clamped squared
  distance from that point to the points of the tiles `0, …, n` of the second cloud; the column-sum buffer holds, at
  batch `b`, the sum over the points of those tiles of their nearest distances to the first cloud. One step takes the
  closed form for `n` to the closed form for `n + 1`: a minimum with the new tile's row minimum, a sum with the new
  tile's column total. After the last step the two buffers hold the two sums of the Chamfer distance, and the result
  block is the distance itself.
-/
import proofs.«139898_j11381663334570_2_alg».proof.Proof.Spec
import proofs.«139898_j11381663334570_2_alg».proof.Proof.Tiles
import proofs.«139898_j11381663334570_2_alg».proof.Proof.Payload

noncomputable section

open Idealize.ShloMosaic Idealize.ShloMosaic.ValueIdx

namespace Cert.Chamfer.Steps

open Cert.KernelIdeal Cert.KernelIdeal.Gen Cert.Chamfer Cert.Chamfer.Payload

variable (P G : Cloud 8192)

/-- The least distance from point `p` of batch `b` to the tiles `0, …, n` of the second cloud. -/
def rowMinAt (n : ℕ) (b : Fin 4) (p : Fin 8192) : EReal :=
  ⨅ t : Fin 128, ⨅ (_ : t.val ≤ n), ⨅ j : Fin 64, dist P (tile G t) b p j

/-- The sum, over the points of the tiles `0, …, n` of the second cloud, of their nearest distances to the first. -/
def colSumAt (n : ℕ) (b : Fin 4) : EReal :=
  ∑ t ∈ Finset.univ.filter (fun t : Fin 128 => t.val ≤ n), ∑ j : Fin 64, nearP P (tile G t) b j

/-- The first step: `min ⊤` with tile 0's row minimum. -/
theorem rowMin_first (t : Fin 128) (ht : t.val = 0) (x0 : Vec Ideal S4x8192x3 .f32) (x1 : Vec Ideal S4x64x3 .f32)
    (h0 : x0 = P) (h1 : x1 = tile G t) (b : Fin 4) (p : Fin 8192) (u : Fin 1) :
    k0_pay6 (F := Ideal) x0 x1 (k0_pay3 (F := Ideal)) (ix3 b p u) = rowMinAt P G 0 b p := by
  subst h0 h1
  obtain rfl : t = ⟨0, by decide⟩ := Fin.ext ht
  rw [pay6_apply, pay3_apply]
  exact runMin_zero (fun t => ⨅ j : Fin 64, dist x0 (tile G t) b p j)

/-- A later step: the minimum so far with the new tile's row minimum. -/
theorem rowMin_next (n : ℕ) (t : Fin 128) (ht : t.val = n + 1) (x0 : Vec Ideal S4x8192x3 .f32) (x1 : Vec Ideal S4x64x3 .f32)
    (h0 : x0 = P) (h1 : x1 = tile G t) (acc : Vec Ideal S4x8192x1 .f32)
    (hacc : ∀ (b : Fin 4) (p : Fin 8192) (u : Fin 1), acc (ix3 b p u) = rowMinAt P G n b p)
    (b : Fin 4) (p : Fin 8192) (u : Fin 1) :
    k0_pay6 (F := Ideal) x0 x1 acc (ix3 b p u) = rowMinAt P G (n + 1) b p := by
  subst h0 h1
  have h : n + 1 < 128 := ht ▸ t.isLt
  obtain rfl : t = ⟨n + 1, h⟩ := Fin.ext ht
  rw [pay6_apply, hacc]
  exact runMin_succ (fun t => ⨅ j : Fin 64, dist x0 (tile G t) b p j) n h

/-- The first step: `0 +` tile 0's column total. -/
theorem colSum_first (t : Fin 128) (ht : t.val = 0) (x0 : Vec Ideal S4x8192x3 .f32) (x1 : Vec Ideal S4x64x3 .f32)
    (h0 : x0 = P) (h1 : x1 = tile G t) (b : Fin 4) (u v : Fin 1) :
    k0_pay1 (F := Ideal) (k0_pay4 (F := Ideal)) (k0_pay7 x0 x1) (ix3 b u v) = colSumAt P G 0 b := by
  subst h0 h1
  obtain rfl : t = ⟨0, by decide⟩ := Fin.ext ht
  rw [pay1_apply, pay4_apply, pay7_apply]
  exact runSum_zero (fun t => ∑ j : Fin 64, nearP x0 (tile G t) b j)

/-- A later step: the sum so far plus the new tile's column total. -/
theorem colSum_next (n : ℕ) (t : Fin 128) (ht : t.val = n + 1) (x0 : Vec Ideal S4x8192x3 .f32) (x1 : Vec Ideal S4x64x3 .f32)
    (h0 : x0 = P) (h1 : x1 = tile G t) (acc : Vec Ideal S4x1x1 .f32)
    (hacc : ∀ (b : Fin 4) (u v : Fin 1), acc (ix3 b u v) = colSumAt P G n b)
    (b : Fin 4) (u v : Fin 1) :
    k0_pay1 (F := Ideal) acc (k0_pay7 x0 x1) (ix3 b u v) = colSumAt P G (n + 1) b := by
  subst h0 h1
  have h : n + 1 < 128 := ht ▸ t.isLt
  obtain rfl : t = ⟨n + 1, h⟩ := Fin.ext ht
  rw [pay1_apply, hacc, pay7_apply]
  exact runSum_succ (fun t => ∑ j : Fin 64, nearP x0 (tile G t) b j) n h

/-- After the last step: the two averages of the two buffers, added, are the Chamfer distance. -/
theorem result_last (v40 : Vec Ideal S4x8192x1 .f32) (v42 : Vec Ideal S4x1x1 .f32)
    (h40 : ∀ (b : Fin 4) (p : Fin 8192) (u : Fin 1), v40 (ix3 b p u) = rowMinAt P G 127 b p)
    (h42 : ∀ (b : Fin 4) (u v : Fin 1), v42 (ix3 b u v) = colSumAt P G 127 b) (b : Fin 4) (u : Fin 1) :
    k0_pay2 (F := Ideal) v40 v42 (ix2 b u) = chamfer P G b := by
  rw [pay2_apply, h42, ← chamfer_tiles]
  have e1 : (∑ n : Fin 8192, v40 (ix3 b n u)) = ∑ n : Fin 8192, ⨅ t : Fin 128, ⨅ j : Fin 64, dist P (tile G t) b n j :=
    Finset.sum_congr rfl fun n _ => (h40 b n u).trans (runMin_last (fun t => ⨅ j : Fin 64, dist P (tile G t) b n j))
  have e2 : colSumAt P G 127 b = ∑ t : Fin 128, ∑ j : Fin 64, nearP P (tile G t) b j :=
    runSum_last (fun t => ∑ j : Fin 64, nearP P (tile G t) b j)
  rw [e1, e2]

end Cert.Chamfer.Steps

end
-- ==== Proof.Accum.lean ====
/-
  What the tiled kernel's buffers hold after each grid step, by induction on the step.

  The first step leaves the closed forms for one tile; a later step takes the closed forms for the tiles so far to those
  with one more tile. At the last step the result block is the Chamfer distance of the two clouds.
-/
import proofs.«139898_j11381663334570_2_alg».proof.Proof.Gen.KernelIdeal.Frame
import proofs.«139898_j11381663334570_2_alg».proof.Proof.Pieces
import proofs.«139898_j11381663334570_2_alg».proof.Proof.Blocks
import proofs.«139898_j11381663334570_2_alg».proof.Proof.Steps

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Blocks Cert.Chamfer Cert.Chamfer.Steps

variable (m : (ℓ : Loc nD τ sig) → Buf (Elt Ideal) ℓ)

set_option maxHeartbeats 800000 in
/-- After step `n` the two carried buffers hold the closed forms for the tiles `0, …, n`. -/
theorem carried (c : Dev nD) : ∀ (n k : ℕ) (hk : k < cfg0.N), k = n →
    (∀ (b : Fin 4) (p : Fin 8192) (u : Fin 1),
        (outsAt0 m c k hk).2.1 (ix3 b p u) = rowMinAt (cloudP m c) (cloudG m c) n b p)
      ∧ (∀ (b : Fin 4) (u v : Fin 1), (outsAt0 m c k hk).2.2 (ix3 b u v) = colSumAt (cloudP m c) (cloudG m c) n b)
  | 0, k, hk, hkn => by
    have h0 : (⟨k, hk⟩ : Fin cfg0.N).val % 128 = 0 := by show k % 128 = 0; omega
    have h1 : ¬(⟨k, hk⟩ : Fin cfg0.N).val % 128 = 127 := by show ¬k % 128 = 127; omega
    have hc0 : cond0_0 (grid0.coords (⟨k, hk⟩ : Fin cfg0.N)) := (hcond0_0 _).mpr h0
    have hc1 : ¬cond0_1 (grid0.coords (⟨k, hk⟩ : Fin cfg0.N)) := fun h => h1 ((hcond0_1 _).mp h)
    have e := outsAt0_A m c (⟨k, hk⟩ : Fin cfg0.N) h0 h1
    rw [show outsAt0 m c k hk = _ from e]
    dsimp only
    refine ⟨fun b p u => ?_, fun b u v => ?_⟩
    · refine (congrFun (rowmin_A (F := Ideal) c (grid0.coords (⟨k, hk⟩ : Fin cfg0.N)) (ms0_0 (⟨k, hk⟩ : Fin cfg0.N)) (hs0_0 (⟨k, hk⟩ : Fin cfg0.N)) (ms0_1 (⟨k, hk⟩ : Fin cfg0.N)) (hs0_1 (⟨k, hk⟩ : Fin cfg0.N)) (ms0_2 (⟨k, hk⟩ : Fin cfg0.N)) (hs0_2 (⟨k, hk⟩ : Fin cfg0.N)) scM0_0 (Memref.isWhole_whole _) scM0_1 (Memref.isWhole_whole _) hc0 hc1 (iblk m c 0 (⟨k, hk⟩ : Fin cfg0.N)) (iblk m c 1 (⟨k, hk⟩ : Fin cfg0.N))) (ix3 b p u)).trans ?_
      exact rowMin_first (cloudP m c) (cloudG m c) (tileOf (⟨k, hk⟩ : Fin cfg0.N)) hkn (iblk m c 0 (⟨k, hk⟩ : Fin cfg0.N)) (iblk m c 1 (⟨k, hk⟩ : Fin cfg0.N))
        (iblk_P m c (⟨k, hk⟩ : Fin cfg0.N)) (iblk_G m c (⟨k, hk⟩ : Fin cfg0.N)) b p u
    · refine (congrFun (colsum_A (F := Ideal) c (grid0.coords (⟨k, hk⟩ : Fin cfg0.N)) (ms0_0 (⟨k, hk⟩ : Fin cfg0.N)) (hs0_0 (⟨k, hk⟩ : Fin cfg0.N)) (ms0_1 (⟨k, hk⟩ : Fin cfg0.N)) (hs0_1 (⟨k, hk⟩ : Fin cfg0.N)) (ms0_2 (⟨k, hk⟩ : Fin cfg0.N)) (hs0_2 (⟨k, hk⟩ : Fin cfg0.N)) scM0_0 (Memref.isWhole_whole _) scM0_1 (Memref.isWhole_whole _) hc0 hc1 (iblk m c 0 (⟨k, hk⟩ : Fin cfg0.N)) (iblk m c 1 (⟨k, hk⟩ : Fin cfg0.N))) (ix3 b u v)).trans ?_
      exact colSum_first (cloudP m c) (cloudG m c) (tileOf (⟨k, hk⟩ : Fin cfg0.N)) hkn (iblk m c 0 (⟨k, hk⟩ : Fin cfg0.N)) (iblk m c 1 (⟨k, hk⟩ : Fin cfg0.N))
        (iblk_P m c (⟨k, hk⟩ : Fin cfg0.N)) (iblk_G m c (⟨k, hk⟩ : Fin cfg0.N)) b u v
  | n + 1, k, hk, hkn => by
    have hN : cfg0.N = 128 := N_0
    have hk' : k < 128 := lt_of_lt_of_eq hk hN
    have hp : k - 1 < cfg0.N := Nat.lt_of_le_of_lt (Nat.sub_le _ _) hk
    obtain ⟨ih0, ih1⟩ := carried c n (k - 1) hp (by omega)
    have h0 : ¬(⟨k, hk⟩ : Fin cfg0.N).val % 128 = 0 := by show ¬k % 128 = 0; omega
    by_cases h1 : (⟨k, hk⟩ : Fin cfg0.N).val % 128 = 127
    ·
      have hc0 : ¬cond0_0 (grid0.coords (⟨k, hk⟩ : Fin cfg0.N)) := fun h => h0 ((hcond0_0 _).mp h)
      have hc1 : cond0_1 (grid0.coords (⟨k, hk⟩ : Fin cfg0.N)) := (hcond0_1 _).mpr h1
      have e := outsAt0_C m c (⟨k, hk⟩ : Fin cfg0.N) h0 h1
      rw [show outsAt0 m c k hk = _ from e]
      dsimp only
      refine ⟨fun b p u => ?_, fun b u v => ?_⟩
      · refine (congrFun (rowmin_C (F := Ideal) c (grid0.coords (⟨k, hk⟩ : Fin cfg0.N)) (ms0_0 (⟨k, hk⟩ : Fin cfg0.N)) (hs0_0 (⟨k, hk⟩ : Fin cfg0.N)) (ms0_1 (⟨k, hk⟩ : Fin cfg0.N)) (hs0_1 (⟨k, hk⟩ : Fin cfg0.N)) (ms0_2 (⟨k, hk⟩ : Fin cfg0.N)) (hs0_2 (⟨k, hk⟩ : Fin cfg0.N)) scM0_0 (Memref.isWhole_whole _) scM0_1 (Memref.isWhole_whole _) hc0 hc1 (iblk m c 0 (⟨k, hk⟩ : Fin cfg0.N)) (iblk m c 1 (⟨k, hk⟩ : Fin cfg0.N))
          (outsAt0 m c (k - 1) hp).2.1 (outsAt0 m c (k - 1) hp).2.2) (ix3 b p u)).trans ?_
        exact rowMin_next (cloudP m c) (cloudG m c) n (tileOf (⟨k, hk⟩ : Fin cfg0.N)) hkn (iblk m c 0 (⟨k, hk⟩ : Fin cfg0.N)) (iblk m c 1 (⟨k, hk⟩ : Fin cfg0.N))
          (iblk_P m c (⟨k, hk⟩ : Fin cfg0.N)) (iblk_G m c (⟨k, hk⟩ : Fin cfg0.N)) (outsAt0 m c (k - 1) hp).2.1 ih0 b p u
      · refine (congrFun (colsum_C (F := Ideal) c (grid0.coords (⟨k, hk⟩ : Fin cfg0.N)) (ms0_0 (⟨k, hk⟩ : Fin cfg0.N)) (hs0_0 (⟨k, hk⟩ : Fin cfg0.N)) (ms0_1 (⟨k, hk⟩ : Fin cfg0.N)) (hs0_1 (⟨k, hk⟩ : Fin cfg0.N)) (ms0_2 (⟨k, hk⟩ : Fin cfg0.N)) (hs0_2 (⟨k, hk⟩ : Fin cfg0.N)) scM0_0 (Memref.isWhole_whole _) scM0_1 (Memref.isWhole_whole _) hc0 hc1 (iblk m c 0 (⟨k, hk⟩ : Fin cfg0.N)) (iblk m c 1 (⟨k, hk⟩ : Fin cfg0.N))
          (outsAt0 m c (k - 1) hp).2.1 (outsAt0 m c (k - 1) hp).2.2) (ix3 b u v)).trans ?_
        exact colSum_next (cloudP m c) (cloudG m c) n (tileOf (⟨k, hk⟩ : Fin cfg0.N)) hkn (iblk m c 0 (⟨k, hk⟩ : Fin cfg0.N)) (iblk m c 1 (⟨k, hk⟩ : Fin cfg0.N))
          (iblk_P m c (⟨k, hk⟩ : Fin cfg0.N)) (iblk_G m c (⟨k, hk⟩ : Fin cfg0.N)) (outsAt0 m c (k - 1) hp).2.2 ih1 b u v
    ·
      have hc0 : ¬cond0_0 (grid0.coords (⟨k, hk⟩ : Fin cfg0.N)) := fun h => h0 ((hcond0_0 _).mp h)
      have hc1 : ¬cond0_1 (grid0.coords (⟨k, hk⟩ : Fin cfg0.N)) := fun h => h1 ((hcond0_1 _).mp h)
      have e := outsAt0_B m c (⟨k, hk⟩ : Fin cfg0.N) h0 h1
      rw [show outsAt0 m c k hk = _ from e]
      dsimp only
      refine ⟨fun b p u => ?_, fun b u v => ?_⟩
      · refine (congrFun (rowmin_B (F := Ideal) c (grid0.coords (⟨k, hk⟩ : Fin cfg0.N)) (ms0_0 (⟨k, hk⟩ : Fin cfg0.N)) (hs0_0 (⟨k, hk⟩ : Fin cfg0.N)) (ms0_1 (⟨k, hk⟩ : Fin cfg0.N)) (hs0_1 (⟨k, hk⟩ : Fin cfg0.N)) (ms0_2 (⟨k, hk⟩ : Fin cfg0.N)) (hs0_2 (⟨k, hk⟩ : Fin cfg0.N)) scM0_0 (Memref.isWhole_whole _) scM0_1 (Memref.isWhole_whole _) hc0 hc1 (iblk m c 0 (⟨k, hk⟩ : Fin cfg0.N)) (iblk m c 1 (⟨k, hk⟩ : Fin cfg0.N))
          (outsAt0 m c (k - 1) hp).2.1 (outsAt0 m c (k - 1) hp).2.2) (ix3 b p u)).trans ?_
        exact rowMin_next (cloudP m c) (cloudG m c) n (tileOf (⟨k, hk⟩ : Fin cfg0.N)) hkn (iblk m c 0 (⟨k, hk⟩ : Fin cfg0.N)) (iblk m c 1 (⟨k, hk⟩ : Fin cfg0.N))
          (iblk_P m c (⟨k, hk⟩ : Fin cfg0.N)) (iblk_G m c (⟨k, hk⟩ : Fin cfg0.N)) (outsAt0 m c (k - 1) hp).2.1 ih0 b p u
      · refine (congrFun (colsum_B (F := Ideal) c (grid0.coords (⟨k, hk⟩ : Fin cfg0.N)) (ms0_0 (⟨k, hk⟩ : Fin cfg0.N)) (hs0_0 (⟨k, hk⟩ : Fin cfg0.N)) (ms0_1 (⟨k, hk⟩ : Fin cfg0.N)) (hs0_1 (⟨k, hk⟩ : Fin cfg0.N)) (ms0_2 (⟨k, hk⟩ : Fin cfg0.N)) (hs0_2 (⟨k, hk⟩ : Fin cfg0.N)) scM0_0 (Memref.isWhole_whole _) scM0_1 (Memref.isWhole_whole _) hc0 hc1 (iblk m c 0 (⟨k, hk⟩ : Fin cfg0.N)) (iblk m c 1 (⟨k, hk⟩ : Fin cfg0.N))
          (outsAt0 m c (k - 1) hp).2.1 (outsAt0 m c (k - 1) hp).2.2) (ix3 b u v)).trans ?_
        exact colSum_next (cloudP m c) (cloudG m c) n (tileOf (⟨k, hk⟩ : Fin cfg0.N)) hkn (iblk m c 0 (⟨k, hk⟩ : Fin cfg0.N)) (iblk m c 1 (⟨k, hk⟩ : Fin cfg0.N))
          (iblk_P m c (⟨k, hk⟩ : Fin cfg0.N)) (iblk_G m c (⟨k, hk⟩ : Fin cfg0.N)) (outsAt0 m c (k - 1) hp).2.2 ih1 b u v

set_option maxHeartbeats 800000 in
/-- At the last step the result block holds the Chamfer distance of each batch. -/
theorem result_block (c : Dev nD) (k : ℕ) (hk : k < cfg0.N) (hkn : k = 127) (b : Fin 4) (u : Fin 1) :
    (outsAt0 m c k hk).1 (ix2 b u) = chamfer (cloudP m c) (cloudG m c) b := by
  have hp : k - 1 < cfg0.N := Nat.lt_of_le_of_lt (Nat.sub_le _ _) hk
  obtain ⟨ih0, ih1⟩ := carried m c 126 (k - 1) hp (by omega)
  have h0 : ¬(⟨k, hk⟩ : Fin cfg0.N).val % 128 = 0 := by show ¬k % 128 = 0; omega
  have h1 : (⟨k, hk⟩ : Fin cfg0.N).val % 128 = 127 := by show k % 128 = 127; omega
  have hc0 : ¬cond0_0 (grid0.coords (⟨k, hk⟩ : Fin cfg0.N)) := fun h => h0 ((hcond0_0 _).mp h)
  have hc1 : cond0_1 (grid0.coords (⟨k, hk⟩ : Fin cfg0.N)) := (hcond0_1 _).mpr h1
  have e := outsAt0_C m c (⟨k, hk⟩ : Fin cfg0.N) h0 h1
  rw [show outsAt0 m c k hk = _ from e]
  dsimp only
  refine (congrFun (result_C (F := Ideal) c (grid0.coords (⟨k, hk⟩ : Fin cfg0.N)) (ms0_0 (⟨k, hk⟩ : Fin cfg0.N)) (hs0_0 (⟨k, hk⟩ : Fin cfg0.N)) (ms0_1 (⟨k, hk⟩ : Fin cfg0.N)) (hs0_1 (⟨k, hk⟩ : Fin cfg0.N)) (ms0_2 (⟨k, hk⟩ : Fin cfg0.N)) (hs0_2 (⟨k, hk⟩ : Fin cfg0.N)) scM0_0 (Memref.isWhole_whole _) scM0_1 (Memref.isWhole_whole _) hc0 hc1 (iblk m c 0 (⟨k, hk⟩ : Fin cfg0.N)) (iblk m c 1 (⟨k, hk⟩ : Fin cfg0.N))
    (outsAt0 m c (k - 1) hp).2.1 (outsAt0 m c (k - 1) hp).2.2) (ix2 b u)).trans ?_
  exact result_last (cloudP m c) (cloudG m c) _ _
    (fun b p u => rowMin_next (cloudP m c) (cloudG m c) 126 (tileOf (⟨k, hk⟩ : Fin cfg0.N)) hkn (iblk m c 0 (⟨k, hk⟩ : Fin cfg0.N)) (iblk m c 1 (⟨k, hk⟩ : Fin cfg0.N))
      (iblk_P m c (⟨k, hk⟩ : Fin cfg0.N)) (iblk_G m c (⟨k, hk⟩ : Fin cfg0.N)) (outsAt0 m c (k - 1) hp).2.1 ih0 b p u)
    (fun b u v => colSum_next (cloudP m c) (cloudG m c) 126 (tileOf (⟨k, hk⟩ : Fin cfg0.N)) hkn (iblk m c 0 (⟨k, hk⟩ : Fin cfg0.N)) (iblk m c 1 (⟨k, hk⟩ : Fin cfg0.N))
      (iblk_P m c (⟨k, hk⟩ : Fin cfg0.N)) (iblk_G m c (⟨k, hk⟩ : Fin cfg0.N)) (outsAt0 m c (k - 1) hp).2.2 ih1 b u v) b u

end Cert.KernelIdeal.Accum

end
-- ==== Proof.KernelValue.lean ====
/-
  The tiled kernel's result: the Chamfer distance of each batch.

  The result block is written back once, after the last grid step, and it is the whole `4 × 1` result array; what the
  last step left in it is the column of the four distances. The reshape that follows reads that column as a vector of
  four numbers, entry `b` of the vector being entry `(b, 0)` of the column.
-/
import proofs.«139898_j11381663334570_2_alg».proof.Proof.Gen.KernelIdeal.Frame
import proofs.«139898_j11381663334570_2_alg».proof.Proof.Blocks
import proofs.«139898_j11381663334570_2_alg».proof.Proof.Accum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx Idealize.ShloMosaic.Tactic
open Idealize.ShloMosaic.Pipeline (Dat)

namespace Cert.KernelIdeal.Value

open Cert.KernelIdeal Cert.KernelIdeal.Gen Cert.KernelIdeal.Blocks Cert.Chamfer

variable (m : (ℓ : Loc nD τ sig) → Buf (Elt Ideal) ℓ) (ρ : Dev nD → PrngReg)

/-- The last grid step. -/
abbrev tLast : Fin cfg0.N := ⟨127, by rw [show cfg0.N = 128 from N_0]; decide⟩

/-- The kernel's `4 × 1` result array: the Chamfer distance of each batch. -/
abbrev column (c : Dev nD) : Buf (Elt Ideal) ((c : Thread nD τ).loc main_v0) :=
  fun y => chamfer (cloudP m c) (cloudG m c) (y 0)

/-- The program's result: the same four numbers as a vector. -/
abbrev result (c : Dev nD) : Buf (Elt Ideal) ((c : Thread nD τ).loc main_v1) :=
  fun i => chamfer (cloudP m c) (cloudG m c) (i 0)

/-- What the last step leaves in the result block is that column. -/
theorem last_block (c : Dev nD) : (outsAt0 m c tLast.val tLast.isLt).1 = column m c := by
  funext y
  obtain ⟨b, u, rfl⟩ : ∃ (b : Fin 4) (u : Fin 1), y = ix2 b u := ⟨y 0, y 1, eq_ix2 y⟩
  exact Accum.result_block m c tLast.val tLast.isLt rfl b u

/-- The one write-back, after the last step, writes the column: the block is the whole `4 × 1` array. -/
theorem flushed_eq (c : Dev nD) (t : Fin cfg0.N) (hf : (cfg0.win 2).flush t = true) :
    (dats m 0 c).flushed 2 t = ((cfg0.win 2).blk t).view.read (Elt Ideal) (column m c) := by
  have hN : cfg0.N = 128 := N_0
  have h127 : t.val = 127 := by have := (flush0_2 t).mp hf; have := t.isLt; omega
  obtain rfl : t = tLast := Fin.ext h127
  show (cfg0.win 2).cut (grid0.coords tLast) ((dats m 0 c).after 2 tLast) = _
  rw [after0_2, last_block]
  have hz' : (fun a => win0_2.index tLast a * main_v0.ty.shape.size a) = fun _ => 0 := funext fun a => by fin_cases a <;> decide
  exact (Memref.read_access_unit_zero (Elt Ideal) main_v0 hz' (fun a => by rw [congrFun hz' a]; simp) (column m c)).symm

/-- So the result array ends holding the column. -/
theorem final_column (c : Dev nD) : (dats m 0 c).arrAt 2 cfg0.N = column m c :=
  (dats m 0 c).arrAt_eq_of_cover 2 (column m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 4 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 4 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The reshape after the kernel reads the column as a vector. -/
theorem tail_eq (c : Dev nD) : Pipeline.afterTail₀ cfgs (dats m) 0 (V0 m) [hostOps1] c main_v1 = result m c := by
  unfold Pipeline.afterTail₀
  show StableHlo.after hostOps1 _ (Proc.devRef .tc main_v1) = _
  after_results
  funext i
  have hw : Pipeline.withArrays (cfgs 0).spec c (V0 m c) (fun w => (dats m 0 c).arrAt w (cfgs 0).N) (Proc.tc.devRef main_v0)
      = column m c := (Pipeline.withArrays_arr spec0 launch0.win.arr_inj c _ _ 2).trans (final_column m c)
  show shapeCast main_v1.ty.shape (Pipeline.withArrays (cfgs 0).spec c (V0 m c) (fun w => (dats m 0 c).arrAt w (cfgs 0).N)
    (Proc.tc.devRef main_v0)) shapeCasts_S4x1_S4 i = _
  rw [hw]
  obtain ⟨b, rfl⟩ : ∃ b : Fin 4, i = ix1 b := ⟨i 0, eq_ix1 i⟩
  refine (shapeCast_apply (column m c) shapeCasts_S4x1_S4 (ix1 b) (ix2 b (0 : Fin 1)) ?_).trans rfl
  show ((⟨2, ![4, 1]⟩ : Shape).rowMajor (ix2 b (0 : Fin 1))).val = ((⟨1, ![4]⟩ : Shape).rowMajor (ix1 b)).val
  rw [Shape.rowMajor_val_two, Shape.rowMajor_val_one]
  show b.val * 1 + 0 = b.val
  omega

/-- The kernel's run: it ends with the Chamfer distances in its result and its two arguments as they were. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.RefValue.lean ====
/-
  The reference's result is the Chamfer distance.

  The reference materializes the whole table of clamped squared distances: at (b, n, k) it adds the squared norms of
  point n of the first cloud and point k of the second (each a sum of three squares started from zero, carried to the
  table through two size-one axes), subtracts twice their inner product, and clamps at zero — which is `dist` at
  (b, n, k). A minimum-reduction of the table over its last axis, started from positive infinity, is at (b, n) the
  infimum over k, the distance from point n to the nearest point of the second cloud; over its middle axis it is at
  (b, k) the infimum over n. Each family is summed from zero over its 8192 points and divided by 8192, and the two
  quotients are added: the Chamfer distance of batch b.
-/
import proofs.«139898_j11381663334570_2_alg».proof.Defs
import proofs.«139898_j11381663334570_2_alg».proof.Proof.Gen.ReferenceIdeal.Read
import proofs.«139898_j11381663334570_2_alg».proof.Proof.Spec
import proofs.«139898_j11381663334570_2_alg».proof.Proof.Tiles

noncomputable section
namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Chamfer

/-- Through the two size-one axes, the first cloud's squared norm is read at point `n`. -/
theorem idxP (b : Fin 4) (n k : Fin 8192) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)

/-- Through the two size-one axes, the second cloud's squared norm is read at point `k`. -/
theorem idxG (b : Fin 4) (n k : Fin 8192) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)

/-- The inner product reads the first cloud at point `n` … -/
theorem lidx_eq (b : Fin 4) (n k : Fin 8192) (d : Fin 3) : lidx_main_v4 (ix3 b n k) d = ix3 b n d :=
  funext fun a => Fin.ext (by match a with | ⟨0, _⟩ => rfl | ⟨1, _⟩ => rfl | ⟨2, _⟩ => rfl)

/-- … and the second cloud at point `k`. -/
theorem ridx_eq (b : Fin 4) (n k : Fin 8192) (d : Fin 3) : ridx_main_v4 (ix3 b n k) d = ix3 b k d :=
  funext fun a => Fin.ext (by match a with | ⟨0, _⟩ => rfl | ⟨1, _⟩ => rfl | ⟨2, _⟩ => rfl)

/-- The table of clamped squared distances, at `(b, n, k)`. -/
theorem d2_apply (P G : (⟨S4x8192x3, .f32⟩ : BufTy).Contents (Elt Ideal)) (b : Fin 4) (n k : Fin 8192) :
    val_main_v14 (F := Ideal) P G (ix3 b n k) = dist P G b n k := by
  rw [val_main_v14_apply, val_main_v12_apply, val_main_v9_apply, val_main_v7_apply, val_main_v5_apply, val_main_v1_apply,
    val_main_v8_apply, val_main_v6_apply, val_main_v3_apply, val_main_v11_apply, val_main_v10_apply, val_main_cst_1_apply,
    val_main_v4_apply, val_main_v13_apply, val_main_cst_2_apply, val_main_cst_apply, val_main_cst_0_apply]
  simp only [val_main_v0_apply, val_main_v2_apply, Ideal.maximumf_def, Ideal.subf_def, Ideal.addf_def, Ideal.mulf_def,
    Ideal.ofBits_def, idxP, idxG, lidx_eq, ridx_eq]
  unfold Chamfer.dist Chamfer.sq Chamfer.dotp
  rw [Ideal.ofBits_zero_f32, zero_add, zero_add]

/-- The minimum over the last axis, at `(b, n)`: the distance from point `n` to the nearest point of the second cloud. -/
theorem nearG_apply (P G : (⟨S4x8192x3, .f32⟩ : BufTy).Contents (Elt Ideal)) (b : Fin 4) (n : Fin 8192) :
    val_main_v15 (F := Ideal) P G (ix2 b n) = nearG P G b n := by
  have h : S4x8192x8192.Reduces [2] S4x8192 := by decide
  unfold val_main_v15
  rw [Host.reduce_eq_fold_single (FloatOps.minimumf (F := Ideal) (φ := .f32)) _ _ reducesTo_S4x8192x8192_S4x8192_d2 h h_S_ (ix2 b n)]
  rw [val_main_cst_3_apply, Ideal.ofBits_def, ofBits_inf]
  refine (fold_min_eq_iInf _).trans ?_
  unfold nearG
  refine iInf_congr fun k => ?_
  exact (congrArg (val_main_v14 (F := Ideal) P G) (funext fun a => Fin.ext (by
    match a with | ⟨0, _⟩ => rfl | ⟨1, _⟩ => rfl | ⟨2, _⟩ => rfl))).trans (d2_apply P G b n k)

/-- The minimum over the middle axis, at `(b, k)`: the distance from point `k` to the nearest point of the first cloud. -/
theorem nearP_apply (P G : (⟨S4x8192x3, .f32⟩ : BufTy).Contents (Elt Ideal)) (b : Fin 4) (k : Fin 8192) :
    val_main_v16 (F := Ideal) P G (ix2 b k) = nearP P G b k := by
  have h : S4x8192x8192.Reduces [1] S4x8192 := by decide
  unfold val_main_v16
  rw [Host.reduce_eq_fold_single (FloatOps.minimumf (F := Ideal) (φ := .f32)) _ _ reducesTo_S4x8192x8192_S4x8192_d1 h h_S_ (ix2 b k)]
  rw [val_main_cst_4_apply, Ideal.ofBits_def, ofBits_inf]
  refine (fold_min_eq_iInf _).trans ?_
  unfold nearP
  refine iInf_congr fun n => ?_
  exact (congrArg (val_main_v14 (F := Ideal) P G) (funext fun a => Fin.ext (by
    match a with | ⟨0, _⟩ => rfl | ⟨1, _⟩ => rfl | ⟨2, _⟩ => rfl))).trans (d2_apply P G b n k)

/-- The sum of the first family runs over the points `k` of batch `b`. -/
theorem idx17 (b : Fin 4) (k : Fin 8192) : idx_main_v17 (ix1 b) k = ix2 b k :=
  funext fun a => Fin.ext (by match a with | ⟨0, _⟩ => rfl | ⟨1, _⟩ => rfl)

/-- The sum of the second family runs over the points `k` of batch `b`. -/
theorem idx20 (b : Fin 4) (k : Fin 8192) : idx_main_v20 (ix1 b) k = ix2 b k :=
  funext fun a => Fin.ext (by match a with | ⟨0, _⟩ => rfl | ⟨1, _⟩ => rfl)

/-- The reference's result at batch `b` is the Chamfer distance of batch `b`. -/
theorem ref_eq (P G : (⟨Cert.ReferenceIdeal.S4x8192x3, .f32⟩ : BufTy).Contents (Elt Ideal)) :
    Cert.ReferenceIdeal.Read.val_main_v23 (F := Ideal) P G = fun i => Cert.Chamfer.chamfer P G (i 0) := by
  funext i
  obtain ⟨b, rfl⟩ : ∃ b, i = ix1 b := ⟨i 0, eq_ix1 i⟩
  rw [val_main_v23_apply, val_main_v19_apply, val_main_v22_apply, val_main_v17_apply, val_main_v20_apply,
    val_main_v18_apply, val_main_v21_apply, val_main_cst_6_apply, val_main_cst_8_apply, val_main_cst_5_apply,
    val_main_cst_7_apply]
  simp only [Ideal.addf_def, Ideal.hostDivf_def, Ideal.ofBits_def, Ideal.ofBits_zero_f32, zero_add, idx17, idx20,
    nearG_apply, nearP_apply]
  rfl

end Cert.ReferenceIdeal.RefValue
end
-- ==== Proof.lean ====
/-
  The tiled Chamfer-distance kernel against its jnp reference, over the extended reals.

  Both programs take two batches of point clouds `P, G : f32[4, 8192, 3]` and return, per batch, the average over the
  points of `P` of the clamped squared distance `max (|p|² + |g|² − 2⟨p, g⟩) 0` to the nearest point of `G`, plus the
  same average with the roles exchanged. The reference forms all `8192 × 8192` distances of a batch at once. The kernel
  walks `G` in 128 tiles of 64 points, keeping a running minimum per point of `P` and a running sum of the tiles'
  column minima, and divides at the last tile.

  Over the extended reals the two agree because an infimum over all points of `G` is the infimum over the tiles of the
  infima inside the tiles, and a sum over all points of `G` is the sum over the tiles of the sums inside the tiles:
  laws of a complete lattice and of a commutative monoid, which hold at the infinities too, so the finiteness of the
  inputs is never used. The ideal pass rewrote nothing, so the idealized kernel is the kernel's own text.
-/
import proofs.«139898_j11381663334570_2_alg».proof.Defs
import proofs.«139898_j11381663334570_2_alg».proof.Proof.Gen.Kernel
import proofs.«139898_j11381663334570_2_alg».proof.Proof.Gen.Kernel.Skeleton
import proofs.«139898_j11381663334570_2_alg».proof.Proof.Gen.Kernel.Launch
import proofs.«139898_j11381663334570_2_alg».proof.Proof.Gen.Kernel.Points
import proofs.«139898_j11381663334570_2_alg».proof.Proof.Gen.Kernel.Frame
import proofs.«139898_j11381663334570_2_alg».proof.Proof.Gen.KernelIdeal
import proofs.«139898_j11381663334570_2_alg».proof.Proof.Gen.KernelIdeal.Skeleton
import proofs.«139898_j11381663334570_2_alg».proof.Proof.Gen.KernelIdeal.Launch
import proofs.«139898_j11381663334570_2_alg».proof.Proof.Gen.KernelIdeal.Points
import proofs.«139898_j11381663334570_2_alg».proof.Proof.Gen.KernelIdeal.Frame
import proofs.«139898_j11381663334570_2_alg».proof.Proof.Gen.ReferenceIdeal
import proofs.«139898_j11381663334570_2_alg».proof.Proof.Gen.ReferenceIdeal.Run
import proofs.«139898_j11381663334570_2_alg».proof.Proof.Gen.ReferenceIdeal.Read
import proofs.«139898_j11381663334570_2_alg».proof.Proof.Gen.Pre_finite_inputs
import proofs.«139898_j11381663334570_2_alg».proof.Proof.KernelValue
import proofs.«139898_j11381663334570_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the two clouds, the kernel ends with the Chamfer distances of its clouds and the
    reference with the Chamfer distances of its own: the same four extended reals. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
